-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel

variable [Facts]

def fn {F : FTy → Type} [FloatOps F] (main_arg0 : FVec F S8x4096x4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  main_v3
-- ==== Kernel.lean ====
abbrev S8x4096x4096 : Shape := ⟨3, ![8, 4096, 4096]⟩
abbrev S1x256x4096 : Shape := ⟨3, ![1, 256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x4096, .f32⟩
  | .hbm, ⟨1, _⟩ => ⟨S8x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  iota_S1x256x4096_d1_w32 : S1x256x4096.Iotas .tc 32 [1]
  iota_S1x256x4096_d2_w32 : S1x256x4096.Iotas .tc 32 [2]
  inb_S1x256x4096_S1x256x4096_0_0_0 : ∀ a, (![0, 0, 0] : Fin 3 → Nat) a + S1x256x4096.size a ≤ S1x256x4096.size a
  h_S1x256x4096 : 0 < S1x256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x4096x4096.size a
  hwx0_0 : ∀ i : grid0.Coords, EltTy.bits .f32 = 32 ∨ (Rect.block (s := S8x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S8x4096x4096.size a
  hwx0_1 : ∀ i : grid0.Coords, EltTy.bits .f32 = 32 ∨ (Rect.block (s := S8x4096x4096) S1x256x4096.size (cc0_transform_1 i) (hinb0_1 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096, .i32⟩
  | .hbm, ⟨2, _⟩ => ⟨S4096x1, .i32⟩
  | .hbm, ⟨3, _⟩ => ⟨S4096, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S1x4096x4096, .i1⟩
  | .hbm, ⟨9, _⟩ => ⟨S_, .f32⟩
  | .hbm, ⟨10, _⟩ => ⟨S8x4096x4096, .i1⟩
  | .hbm, ⟨11, _⟩ => ⟨S8x4096x4096, .f32⟩
  | .hbm, ⟨12, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x4096 : S_.BroadcastsInDim S8x4096x4096 (![] : Fin 0 → Fin S8x4096x4096.rank)

variable [Facts₀]

class Facts : Prop extends Facts₀ where

variable [Facts]
-- ==== Proof.UpperOnes.lean ====
/-
  The function both programs compute.

  An array `x` of shape 8 × 4096 × 4096 is a stack of eight square matrices. The result keeps the entry
  `x[b, r, q]` on and below the diagonal (`q ≤ r`) and holds the float one, the word 3F800000, strictly above it
  (`q > r`): the strict upper triangle of every matrix is overwritten with ones.

  Both programs decide "`q > r`" on 32-bit words: they compare, as signed integers, the word of the column with
  the word of the row. `above r q` is that bit and `upperOnes x` the result array, entry by entry. Since rows and
  columns are below 4096, far below 2³¹, the signed comparison of the words is the comparison of the numbers
  (`above_eq`), which gives the reading above (`upperOnes_apply`). Nothing here is arithmetic on floats: an entry
  is chosen, never computed, so the function is the same at every reading of the floats, and no finiteness of
  `x` is used.
-/
import Idealize.ShloMosaic.PureOps.Vector

noncomputable section

namespace Cert.UpperOnes

open Idealize.ShloMosaic

variable {F : FTy → Type} [FloatOps F]

/-- Eight matrices of 4096 rows and 4096 columns. -/
abbrev Arr : Shape := ⟨3, ![8, 4096, 4096]⟩

/-- The bit "column `q` exceeds row `r`" as the programs compute it: the signed comparison of the two 32-bit
    words. -/
def above (r q : Nat) : BitVec 1 := IntOp.cmpi .sgt (BitVec.ofNat 32 q) (BitVec.ofNat 32 r)

/-- Below 2³¹ a number's 32-bit word, read as a signed integer, is the number. -/
theorem toInt_word (n : Nat) (h : n < 2 ^ 31) : (BitVec.ofNat 32 n).toInt = (n : Int) := by
  rw [BitVec.toInt_ofNat']
  exact Int.bmod_eq_of_le (by omega) (by omega)

/-- For rows and columns below 2³¹ the bit is set exactly when the column is to the right of the row's diagonal
    entry. -/
theorem above_eq (r q : Nat) (hr : r < 2 ^ 31) (hq : q < 2 ^ 31) : above r q = if r < q then 1#1 else 0#1 := by
  show BitVec.ofBool ((BitVec.ofNat 32 r).slt (BitVec.ofNat 32 q)) = _
  rw [BitVec.slt, toInt_word r hr, toInt_word q hq]
  by_cases h : r < q
  · rw [if_pos h]; simp [h]
  · rw [if_neg h]; simp [h]

/-- The result: at `(b, r, q)` the float one where the bit is set, the entry of `x` elsewhere. -/
def upperOnes (x : Arr.Idx → Elt F .f32) : Arr.Idx → Elt F .f32 :=
  fun j => Scalar.select (above (j 1).val (j 2).val) (FloatOps.ofBits .f32 0x3F800000#32) (x j)

/-- The entry at an index whose row is `r` and whose column is `q`. -/
theorem upperOnes_at (x : Arr.Idx → Elt F .f32) (j : Arr.Idx) (r q : Nat) (hr : (j 1).val = r) (hq : (j 2).val = q) :
    upperOnes x j = Scalar.select (above r q) (FloatOps.ofBits .f32 0x3F800000#32) (x j) := by
  subst hr hq; rfl

/-- Entry by entry: one strictly above the diagonal, `x` on and below it. -/
theorem upperOnes_apply (x : Arr.Idx → Elt F .f32) (j : Arr.Idx) :
    upperOnes x j = if (j 1).val < (j 2).val then FloatOps.ofBits .f32 0x3F800000#32 else x j := by
  have h1 : (j 1).val < 4096 := (j 1).isLt
  have h2 : (j 2).val < 4096 := (j 2).isLt
  unfold upperOnes
  rw [above_eq _ _ (by omega) (by omega)]
  by_cases h : (j 1).val < (j 2).val
  · rw [if_pos h, if_pos h]; rfl
  · rw [if_neg h, if_neg h]; rfl

end Cert.UpperOnes

end
-- ==== Proof.BodyValue.lean ====
/-
  What the kernel's body stores, entry by entry.

  At grid point `(b, t)` the body holds the block of 256 rows `256·t, …, 256·t + 255` of matrix `b`, all 4096
  columns. It numbers the block's rows `256·t + y` (the word of `t` times the word 256, plus the word of the row
  `y` inside the block) and its columns `q`, compares column word with row word, signed, and stores one where the
  column is greater and the loaded entry elsewhere. Sums and products of words are the words of the sums and
  products, so the row's word is the word of the number `256·t + y`: the stored entry at `(·, y, q)` is chosen by
  `above (256·t + y) q`.
-/
import proofs.«173966_j1314259993026_1_alg».proof.Proof.Gen.KernelIdeal.Skeleton
import proofs.«173966_j1314259993026_1_alg».proof.Proof.UpperOnes
import Idealize.ShloMosaic.Lib.Pipeline.Value

noncomputable section

namespace Cert.KernelIdeal.BodyValue

open Cert.KernelIdeal Cert.KernelIdeal.Gen Cert.UpperOnes Idealize.ShloMosaic

variable {F : FTy → Type} [FloatOps F]

/-- The row number of the array as a word: the block's first row, `t · 256`, plus the row inside the block. -/
theorem row_word (t y : Nat) :
    IntOp.addi (Scalar.muli (BitVec.ofNat 32 t) 256#32) (BitVec.ofNat 32 y) = BitVec.ofNat 32 (t * 256 + y) := by
  show BitVec.ofNat 32 t * BitVec.ofNat 32 256 + BitVec.ofNat 32 y = _
  rw [← BitVec.ofNat_mul, ← BitVec.ofNat_add]

/-- The value the body stores, at an entry `y` of the block, at grid coordinates `i`: one where the column
    `y 2` exceeds the array's row `256 · i 1 + y 1`, the loaded entry elsewhere. -/
theorem stored_apply (i : grid0.Coords) (x0 : Vec F S1x256x4096 .f32) (y : S1x256x4096.Idx) :
    k0_pay1 (F := F) i x0 y
      = Scalar.select (above ((i 1).val * 256 + (y 1).val) (y 2).val) (FloatOps.ofBits .f32 0x3F800000#32) (x0 y) := by
  unfold k0_pay1
  show Scalar.select (IntOp.cmpi .sgt (iota .tc S1x256x4096 32 [2] iota_S1x256x4096_d2_w32 y)
      (IntOp.addi (Scalar.muli (BitVec.ofNat 32 (i 1).val) 256#32) (iota .tc S1x256x4096 32 [1] iota_S1x256x4096_d1_w32 y)))
      (FloatOps.ofBits .f32 0x3F800000#32) (x0 y) = _
  rw [iota_single_apply, iota_single_apply, row_word]
  rfl

end Cert.KernelIdeal.BodyValue

end
-- ==== Proof.KernelValue.lean ====
/-
  The kernel's result array is `upperOnes` of its argument.

  The grid has 8 × 16 points; point `(b, t)` fetches from the argument, and writes back to the result, the block
  of rows `256·t … 256·t + 255` of matrix `b`, all columns — both windows move with the same index map. What the
  point writes back is the stored value of the body (BodyValue), whose entry `(·, y, q)` is chosen by
  `above (256·t + y) q` between one and the fetched entry; the fetched entry is the argument's at row
  `256·t + y`, column `q` of matrix `b`, and that is also where the entry lands in the result. So the point writes
  block `(b, t)` of `upperOnes x` (`flushed_eq`). Every index `(b, r, q)` lies in the block of point `(b, r / 256)`
  (`cover`), so after the run the whole result array is `upperOnes x` (`final`), and the argument array is as
  launched (`run`).
-/
import proofs.«173966_j1314259993026_1_alg».proof.Proof.KernelIdealFrame
import proofs.«173966_j1314259993026_1_alg».proof.Proof.BodyValue
import proofs.«173966_j1314259993026_1_alg».proof.Proof.UpperOnes
import Idealize.ShloMosaic.Lib.Pipeline.Value

noncomputable section

namespace Cert.KernelIdeal.KernelValue

open Cert.KernelIdeal Cert.KernelIdeal.Gen Cert.KernelIdeal.GenP Cert.KernelIdeal.BodyValue Cert.UpperOnes
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body loads and stores its whole block: the rectangle starts at the block's origin. -/
theorem origin : (![0, 0, 0] : Fin 3 → Nat) = fun _ => 0 := funext fun a => by fin_cases a <;> rfl

/-- The two index maps over the 128 grid points: the argument's window and the result's window sit on the same
    block, whose row-block number is the point's second coordinate and whose column-block number is zero. -/
theorem index_facts : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (1 : Fin 3) = (grid0.coords t (1 : Fin 2)).val
    ∧ win0_1.index t (2 : Fin 3) = 0 :=
  (by decide +kernel : ∀ t : Fin grid0.N, _)

/-- Every block `(b, r)` of the 8 × 16 blocks is some point's. -/
theorem index_onto : ∀ (b : Fin 8) (r : Fin 16), ∃ t : Fin cfg0.N, win0_1.index t = ![b.val, r.val, 0] :=
  (by decide +kernel : ∀ (b : Fin 8) (r : Fin 16), ∃ t : Fin grid0.N, win0_1.index t = ![b.val, r.val, 0])

/-- What point `t` writes back is block `t` of `upperOnes` of the argument array. -/
theorem flushed_eq (c : Dev nD) (t : Fin cfg0.N) :
    (dats m 0 c).flushed 1 t = ((cfg0.win 1).blk t).view.read (Elt F) (upperOnes (V m c main_arg0)) := by
  show (cfg0.win 1).cut (grid0.coords t) ((dats m 0 c).after 1 t) = _
  rw [after0_1]
  unfold out0_1
  rw [View.canon_unit_zero origin]
  simp only [View.ld_unit_zero (S := S1x256x4096) origin]
  obtain ⟨e0, e1, e2, e3, e4⟩ := index_facts t
  funext y
  show k0_pay1 (grid0.coords t) (iblk m c 0 t) y = upperOnes (V m c main_arg0) (((cfg0.win 1).blk t).view.emb y)
  have h0 : ((cfg0.win 0).blk t).view.emb y = ((cfg0.win 1).blk t).view.emb y := by
    funext a; apply Fin.ext
    match a with
    | ⟨0, _⟩ => show win0_0.index t (0 : Fin 3) * 1 + 1 * (y 0).val = win0_1.index t (0 : Fin 3) * 1 + 1 * (y 0).val; omega
    | ⟨1, _⟩ => show win0_0.index t (1 : Fin 3) * 256 + 1 * (y 1).val = win0_1.index t (1 : Fin 3) * 256 + 1 * (y 1).val; omega
    | ⟨2, _⟩ => show win0_0.index t (2 : Fin 3) * 4096 + 1 * (y 2).val = win0_1.index t (2 : Fin 3) * 4096 + 1 * (y 2).val; omega
  have hr : ((((cfg0.win 1).blk t).view.emb y) 1).val = (grid0.coords t (1 : Fin 2)).val * 256 + (y 1).val := by
    show win0_1.index t (1 : Fin 3) * 256 + 1 * (y 1).val = _; omega
  have hq : ((((cfg0.win 1).blk t).view.emb y) 2).val = (y 2).val := by
    show win0_1.index t (2 : Fin 3) * 4096 + 1 * (y 2).val = _; omega
  refine (stored_apply (grid0.coords t) (iblk m c 0 t) y).trans ?_
  refine Eq.trans ?_ (upperOnes_at (V m c main_arg0) (((cfg0.win 1).blk t).view.emb y) _ _ hr hq).symm
  show Scalar.select _ _ (V m c main_arg0 (((cfg0.win 0).blk t).view.emb y)) = _
  rw [h0]

/-- An index of the array is in point `t`'s block when each coordinate is in the block's range on its axis. -/
theorem mem_blk (t : Fin cfg0.N) (i : S8x4096x4096.Idx) :
    i ∈ ((cfg0.win 1).blk t).view.set ↔ ∀ a : Fin 3, win0_1.index t a * S1x256x4096.size a ≤ (i a).val ∧ (i a).val < win0_1.index t a * S1x256x4096.size a + S1x256x4096.size a := by
  show i ∈ ((View.whole main_v0).slice (win0_1.rect t)).set ↔ _
  rw [View.set_slice_whole, Rect.mem_set_unit]
  exact Iff.rfl

/-- Every index `(b, r, q)` of the result is in the block of the point with block numbers `(b, r / 256)`. -/
theorem cover (i : S8x4096x4096.Idx) :
    ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 4096 ≤ (i 2).val ∧ (i 2).val < win0_1.index t (2 : Fin 3) * 4096 + 4096; omega

/-- After the run the result array is `upperOnes` of the argument array as launched. -/
theorem final (c : Dev nD) :
    (dats m 0 c).arrAt 1 cfg0.N = upperOnes (m ((c : Thread nD τ).loc main_arg0)) :=
  (dats m 0 c).arrAt_eq_of_cover 1 (upperOnes (V m c main_arg0)) (fun t _ => flushed_eq m c t) cover

/-- The kernel's run: every weakly fair execution terminates with the result array at `upperOnes` of the argument
    and the argument unchanged. -/
theorem run : θ_run defs (onTc (τ := τ) (main (F := F))) ⟨m, fun _ => 0, ρ⟩ fun r => ∀ c : Dev nD,
      r.2.mem ((c : Thread nD τ).loc main_v0) = upperOnes (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.KernelValue

end
-- ==== Proof.ReferenceValue.lean ====
/-
  The reference computes `upperOnes`.

  The reference lays the row numbers down a 4096 × 4096 square (an iota made a column and repeated across) and the
  column numbers across it (an iota made a row and repeated down), compares them entry by entry — column word
  greater than row word, signed —, repeats that square of bits over the eight matrices, and chooses between a
  constant one and `x`. Read at an index `(b, r, q)`, every repetition reads its operand at the coordinates it
  keeps, so the bit at `(b, r, q)` is the comparison of the word of `q` with the word of `r`, and the constant is
  the word 3F800000 everywhere: the entry is `upperOnes x (b, r, q)`.
-/
import proofs.«173966_j1314259993026_1_alg».proof.Proof.Gen.ReferenceIdeal.Read
import proofs.«173966_j1314259993026_1_alg».proof.Proof.UpperOnes

noncomputable section

namespace Cert.ReferenceIdeal.RefValue

open Cert.ReferenceIdeal Cert.ReferenceIdeal.Read Cert.UpperOnes Idealize.ShloMosaic

variable {F : FTy → Type} [FloatOps F]

/-- The reference's last stage, as a function of the argument array, is `upperOnes`: the stages read one after
    the other at an index, down to the two iotas and the constant. -/
theorem reference_eq (x : (⟨S8x4096x4096, .f32⟩ : BufTy).Contents (Elt F)) :
    val_main_v8 (F := F) x = upperOnes (F := F) x := by
  funext i
  rw [val_main_v8_apply, val_main_call0_v0_apply, val_main_v7_apply, val_main_v6_apply,
    val_main_v4_apply, val_main_v3_apply, val_main_v2_apply,
    val_main_v5_apply, val_main_v1_apply, val_main_v0_apply,
    val_main_call0_v1_apply, val_main_cst_apply]
  rfl

end Cert.ReferenceIdeal.RefValue

end
-- ==== Proof.lean ====
/-
  The kernel and its reference compute one function, `upperOnes`: of a stack `x` of eight 4096 × 4096 matrices,
  the array that holds the float one strictly above each matrix's diagonal and `x` on and below it
  (Proof/UpperOnes.lean). An entry is chosen, never computed, so the two results agree on every extended real and
  the finiteness of the input is not used.

  The kernel walks 8 × 16 blocks of 256 rows; its body numbers the block's rows `256·t + y` and its columns `q`,
  compares the words and stores one or the loaded entry (Proof/BodyValue.lean); the blocks written back tile the
  result, which is therefore `upperOnes x` (Proof/KernelValue.lean). The reference builds the square of row
  numbers and the square of column numbers, compares them, and chooses over the whole array at once: read at an
  index it is the same choice (Proof/ReferenceValue.lean). The idealized kernel is the kernel's own text read on
  the extended reals (no operation was rewritten), so nothing is owed for it; each program's run terminates with
  its argument unchanged.
-/
import proofs.«173966_j1314259993026_1_alg».proof.Defs
import proofs.«173966_j1314259993026_1_alg».proof.Proof.Gen.Kernel
import proofs.«173966_j1314259993026_1_alg».proof.Proof.Gen.KernelIdeal
import proofs.«173966_j1314259993026_1_alg».proof.Proof.Gen.ReferenceIdeal
import proofs.«173966_j1314259993026_1_alg».proof.Proof.Gen.Pre_finite_inputs
import proofs.«173966_j1314259993026_1_alg».proof.Proof.Gen.ReferenceIdeal.Run
import proofs.«173966_j1314259993026_1_alg».proof.Proof.Gen.ReferenceIdeal.Read
import proofs.«173966_j1314259993026_1_alg».proof.Proof.KernelFrame
import proofs.«173966_j1314259993026_1_alg».proof.Proof.KernelIdealFrame
import proofs.«173966_j1314259993026_1_alg».proof.Proof.KernelValue
import proofs.«173966_j1314259993026_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel, on words: it terminates and leaves its argument as launched. -/
theorem frame_kernel : Cert.frame_Kernel := fun m ρ _ => Cert.Kernel.GenP.frame m ρ

/-- The kernel, on the extended reals: the same. -/
theorem frame_kernelIdeal : Cert.frame_KernelIdeal := fun m ρ _ => Cert.KernelIdeal.GenP.frame m ρ

/-- The reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From arguments that agree, the kernel's result array and the reference's are both `upperOnes` of the
    argument. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
